-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S64x16 .f32) (main_v33 : IVec S_ 1) : IVec S_ 1 :=
  let main_v34 : FVec F S64x16 .f32 := Host.absf main_arg8
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  main_v38

def fn_part1 {F : FTy → Type} [FloatOps F] (main_arg5 : FVec F S64x64 .f32) (main_arg6 : FVec F S64x16 .f32) (main_arg7 : FVec F S16 .f32) (main_arg8 : FVec F S64x16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1200000 32) (main_arg2 : FVec F S1200000 .f32) (main_arg3 : FVec F S64x64 .f32) (main_arg4 : FVec F S64 .f32) (main_arg5 : FVec F S64x64 .f32) (main_arg6 : FVec F S64x16 .f32) (main_arg7 : FVec F S16 .f32) (main_arg8 : FVec F S64x16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1200000 : Shape := ⟨2, ![1, 1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩
abbrev S1x16 : Shape := ⟨2, ![1, 16]⟩
abbrev S100000x16 : Shape := ⟨2, ![100000, 16]⟩
abbrev S10000x16 : Shape := ⟨2, ![10000, 16]⟩

abbrev nBuf : Space → Nat
  | .hbm => 77
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x16, .f32⟩
  | .hbm, ⟨7, _⟩ => ⟨S16, .f32⟩
  | .hbm, ⟨8, _⟩ => ⟨S64x16, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S_, .i32⟩
  | .hbm, ⟨14, _⟩ => ⟨S1200000, .i32⟩
  | .hbm, ⟨15, _⟩ => ⟨S1200000, .i1⟩
  | .hbm, ⟨16, _⟩ => ⟨S_, .i32⟩
  | .hbm, ⟨17, _⟩ => ⟨S1200000, .i32⟩
  | .hbm, ⟨18, _⟩ => ⟨S1200000, .i32⟩
  | .hbm, ⟨19, _⟩ => ⟨S1200000, .i32⟩
  | .hbm, ⟨20, _⟩ => ⟨S1200000x1, .i32⟩
  | .hbm, ⟨21, _⟩ => ⟨S1200000x64, .f32⟩
  | .hbm, ⟨22, _⟩ => ⟨S1200000x1, .f32⟩
  | .hbm, ⟨23, _⟩ => ⟨S1200000x64, .f32⟩
  | .hbm, ⟨24, _⟩ => ⟨S1200000x64, .f32⟩
  | .hbm, ⟨25, _⟩ => ⟨S_, .f32⟩
  | .hbm, ⟨26, _⟩ => ⟨S100000x64, .f32⟩
  | .hbm, ⟨27, _⟩ => ⟨S1200000x1, .i32⟩
  | .hbm, ⟨28, _⟩ => ⟨S100000x64, .f32⟩
  | .hbm, ⟨29, _⟩ => ⟨S_, .f32⟩
  | .hbm, ⟨30, _⟩ => ⟨S1200000, .f32⟩
  | .hbm, ⟨31, _⟩ => ⟨S_, .f32⟩
  | .hbm, ⟨32, _⟩ => ⟨S100000, .f32⟩
  | .hbm, ⟨33, _⟩ => ⟨S1200000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S64x64, .bf16⟩
  | .hbm, ⟨42, _⟩ => ⟨S64x64, .bf16⟩
  | .hbm, ⟨43, _⟩ => ⟨S1x64, .f32⟩
  | .hbm, ⟨44, _⟩ => ⟨S100000x64, .f32⟩
  | .hbm, ⟨45, _⟩ => ⟨S_, .i32⟩
  | .hbm, ⟨46, _⟩ => ⟨S1200000, .i32⟩
  | .hbm, ⟨47, _⟩ => ⟨S1200000, .i1⟩
  | .hbm, ⟨48, _⟩ => ⟨S_, .i32⟩
  | .hbm, ⟨49, _⟩ => ⟨S1200000, .i32⟩
  | .hbm, ⟨50, _⟩ => ⟨S1200000, .i32⟩
  | .hbm, ⟨51, _⟩ => ⟨S1200000, .i32⟩
  | .hbm, ⟨52, _⟩ => ⟨S1200000x1, .i32⟩
  | .hbm, ⟨53, _⟩ => ⟨S1200000x64, .f32⟩
  | .hbm, ⟨54, _⟩ => ⟨S1200000x1, .f32⟩
  | .hbm, ⟨55, _⟩ => ⟨S1200000x64, .f32⟩
  | .hbm, ⟨56, _⟩ => ⟨S1200000x64, .f32⟩
  | .hbm, ⟨57, _⟩ => ⟨S_, .f32⟩
  | .hbm, ⟨58, _⟩ => ⟨S100000x64, .f32⟩
  | .hbm, ⟨59, _⟩ => ⟨S1200000x1, .i32⟩
  | .hbm, ⟨60, _⟩ => ⟨S100000x64, .f32⟩
  | .hbm, ⟨61, _⟩ => ⟨S_, .f32⟩
  | .hbm, ⟨62, _⟩ => ⟨S1200000, .f32⟩
  | .hbm, ⟨63, _⟩ => ⟨S_, .f32⟩
  | .hbm, ⟨64, _⟩ => ⟨S100000, .f32⟩
  | .hbm, ⟨65, _⟩ => ⟨S1200000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x16, .bf16⟩
  | .hbm, ⟨74, _⟩ => ⟨S64x16, .bf16⟩
  | .hbm, ⟨75, _⟩ => ⟨S1x16, .f32⟩
  | .hbm, ⟨76, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .bf16⟩
  | .local _ .vmem, ⟨5, _⟩ => ⟨S64x64, .bf16⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x16, .bf16⟩
  | .local _ .vmem, ⟨14, _⟩ => ⟨S64x16, .bf16⟩
  | .local _ .vmem, ⟨15, _⟩ => ⟨S1x16, .f32⟩
  | .local _ .vmem, ⟨16, _⟩ => ⟨S10000x16, .f32⟩
  | .local _ .vmem, ⟨17, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x16 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bitsLt_bf16_f32 : FTy.bits .bf16 < FTy.bits .f32
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S16_S1x16 : S16.ShapeCasts S1x16
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .bf16 = 32 ∨ (Rect.block (s := S64x16) S64x16.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .bf16 = 32 ∨ (Rect.block (s := S64x16) S64x16.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x16.size a ≤ S100000x16.size a
  hwx1_5 : ∀ i : grid1.Coords, EltTy.bits .f32 = 32 ∨ (Rect.block (s := S100000x16) S10000x16.size (cc1_transform_5 i) (hinb1_5 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_v25) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v51) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S10000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1200000 : Shape := ⟨2, ![1, 1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 84
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x16, .f32⟩
  | .hbm, ⟨7, _⟩ => ⟨S16, .f32⟩
  | .hbm, ⟨8, _⟩ => ⟨S64x16, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S_, .i32⟩
  | .hbm, ⟨14, _⟩ => ⟨S1200000, .i32⟩
  | .hbm, ⟨15, _⟩ => ⟨S1200000, .i1⟩
  | .hbm, ⟨16, _⟩ => ⟨S_, .i32⟩
  | .hbm, ⟨17, _⟩ => ⟨S1200000, .i32⟩
  | .hbm, ⟨18, _⟩ => ⟨S1200000, .i32⟩
  | .hbm, ⟨19, _⟩ => ⟨S1200000, .i32⟩
  | .hbm, ⟨20, _⟩ => ⟨S1200000x1, .i32⟩
  | .hbm, ⟨21, _⟩ => ⟨S1200000x64, .f32⟩
  | .hbm, ⟨22, _⟩ => ⟨S1200000x1, .f32⟩
  | .hbm, ⟨23, _⟩ => ⟨S1200000x64, .f32⟩
  | .hbm, ⟨24, _⟩ => ⟨S1200000x64, .f32⟩
  | .hbm, ⟨25, _⟩ => ⟨S_, .f32⟩
  | .hbm, ⟨26, _⟩ => ⟨S100000x64, .f32⟩
  | .hbm, ⟨27, _⟩ => ⟨S1200000x1, .i32⟩
  | .hbm, ⟨28, _⟩ => ⟨S100000x64, .f32⟩
  | .hbm, ⟨29, _⟩ => ⟨S_, .f32⟩
  | .hbm, ⟨30, _⟩ => ⟨S1200000, .f32⟩
  | .hbm, ⟨31, _⟩ => ⟨S_, .f32⟩
  | .hbm, ⟨32, _⟩ => ⟨S100000, .f32⟩
  | .hbm, ⟨33, _⟩ => ⟨S1200000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1200000, .i32⟩
  | .hbm, ⟨52, _⟩ => ⟨S1200000, .i1⟩
  | .hbm, ⟨53, _⟩ => ⟨S_, .i32⟩
  | .hbm, ⟨54, _⟩ => ⟨S1200000, .i32⟩
  | .hbm, ⟨55, _⟩ => ⟨S1200000, .i32⟩
  | .hbm, ⟨56, _⟩ => ⟨S1200000, .i32⟩
  | .hbm, ⟨57, _⟩ => ⟨S1200000x1, .i32⟩
  | .hbm, ⟨58, _⟩ => ⟨S1200000x64, .f32⟩
  | .hbm, ⟨59, _⟩ => ⟨S1200000x1, .f32⟩
  | .hbm, ⟨60, _⟩ => ⟨S1200000x64, .f32⟩
  | .hbm, ⟨61, _⟩ => ⟨S1200000x64, .f32⟩
  | .hbm, ⟨62, _⟩ => ⟨S_, .f32⟩
  | .hbm, ⟨63, _⟩ => ⟨S100000x64, .f32⟩
  | .hbm, ⟨64, _⟩ => ⟨S1200000x1, .i32⟩
  | .hbm, ⟨65, _⟩ => ⟨S100000x64, .f32⟩
  | .hbm, ⟨66, _⟩ => ⟨S_, .f32⟩
  | .hbm, ⟨67, _⟩ => ⟨S1200000, .f32⟩
  | .hbm, ⟨68, _⟩ => ⟨S_, .f32⟩
  | .hbm, ⟨69, _⟩ => ⟨S100000, .f32⟩
  | .hbm, ⟨70, _⟩ => ⟨S1200000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S100000x16, .f32⟩
  | .hbm, ⟨79, _⟩ => ⟨S1x16, .f32⟩
  | .hbm, ⟨80, _⟩ => ⟨S100000x16, .f32⟩
  | .hbm, ⟨81, _⟩ => ⟨S100000x16, .f32⟩
  | .hbm, ⟨82, _⟩ => ⟨S100000x16, .f32⟩
  | .hbm, ⟨83, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_cst : Ref sig .tc := ⟨.hbm, 47, rfl⟩
abbrev main_call0_v0 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
/-
  THE KERNEL PROGRAM'S RUN, WITH ITS RESULT NAMED.

  The program is four stretches in a row — host operations, the first kernel on its ten grid points, host operations,
  the second kernel on its ten grid points — and the buffers' contents at each boundary are a fold through them from
  the launch memory: a stretch of host operations applied to what was there, a kernel's output array at what its
  write-backs leave and every other buffer as it was. Every weakly fair execution terminates without a fault, and in
  the final memory every buffer that outlives the kernels holds the last boundary's contents; read at the program's
  result and at its nine arguments, that is the statement below: the result at the fold's value, the arguments as
  launched.
-/
import proofs.«103026_j26714696581620_1_alg».proof.Proof.Gen.KernelIdeal.Frame

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents and the
    argument arrays as launched. -/
theorem run_result : θ_run defs (onTc (τ := τ) (main (F := F))) ⟨m, fun _ => 0, ρ⟩ (fun r => ∀ c : Dev nD,
      r.2.mem ((c.tc : Thread nD τ).loc main_v55) = W4 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v55 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Sage.KernelRun

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«103026_j26714696581620_1_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.LayerSpec.lean ====
/-
  THE DENSE PART OF ONE GRAPH-CONVOLUTION LAYER, AS ONE FUNCTION.

  A layer takes, for every node r, the row agg(r, ·) of neighbour features already averaged and the node's own
  row x(r, ·), and returns at (r, q)

      Σ_k agg(r, k) · Wl(k, q)  +  Σ_k x(r, k) · Wr(k, q)  +  b(q),

  the first layer followed by max(·, 0). Everything is over the extended reals; the sizes are generic. The two
  programs add the three terms in different orders, (s + t) + b against (s + b) + t: addition of extended reals is
  commutative and associative everywhere (the infinities included), so no finiteness is asked of anything.
-/
import proofs.«103026_j26714696581620_1_alg».proof.Proof.LibRowReads

noncomputable section

open scoped BigOperators

namespace Cert.Sage

open Idealize.ShloMosaic Idealize.ShloMosaic.ValueIdx

variable {N D E : Nat}

/-- The layer's dense part at (r, q): the aggregated row against column q of `wl`, the node's own row against column
    q of `wr`, and the bias at q. -/
def dense (a x : (⟨2, ![N, D]⟩ : Shape).Idx → EReal) (wl wr : (⟨2, ![D, E]⟩ : Shape).Idx → EReal)
    (b : (⟨1, ![E]⟩ : Shape).Idx → EReal) : (⟨2, ![N, E]⟩ : Shape).Idx → EReal :=
  fun j => (∑ k : Fin D, a (ix2 (j 0) k) * wl (ix2 k (j 1))) + (∑ k : Fin D, x (ix2 (j 0) k) * wr (ix2 k (j 1)))
    + b (ix1 (j 1))

/-- The same followed by max(·, 0): the hidden layer. -/
def denseRelu (a x : (⟨2, ![N, D]⟩ : Shape).Idx → EReal) (wl wr : (⟨2, ![D, E]⟩ : Shape).Idx → EReal)
    (b : (⟨1, ![E]⟩ : Shape).Idx → EReal) : (⟨2, ![N, E]⟩ : Shape).Idx → EReal :=
  fun j => max (dense a x wl wr b j) 0

theorem dense_apply (a x : (⟨2, ![N, D]⟩ : Shape).Idx → EReal) (wl wr : (⟨2, ![D, E]⟩ : Shape).Idx → EReal)
    (b : (⟨1, ![E]⟩ : Shape).Idx → EReal) (r : Fin N) (q : Fin E) :
    dense a x wl wr b (ix2 r q)
      = (∑ k : Fin D, a (ix2 r k) * wl (ix2 k q)) + (∑ k : Fin D, x (ix2 r k) * wr (ix2 k q)) + b (ix1 q) := rfl

theorem denseRelu_apply (a x : (⟨2, ![N, D]⟩ : Shape).Idx → EReal) (wl wr : (⟨2, ![D, E]⟩ : Shape).Idx → EReal)
    (b : (⟨1, ![E]⟩ : Shape).Idx → EReal) (r : Fin N) (q : Fin E) :
    denseRelu a x wl wr b (ix2 r q)
      = max ((∑ k : Fin D, a (ix2 r k) * wl (ix2 k q)) + (∑ k : Fin D, x (ix2 r k) * wr (ix2 k q)) + b (ix1 q)) 0 := rfl

/-- A one-row matrix read as a vector: entry q of the vector is entry (0, q) of the row. -/
def rowVec (brow : (⟨2, ![1, E]⟩ : Shape).Idx → EReal) : (⟨1, ![E]⟩ : Shape).Idx → EReal :=
  fun i => brow (ix2 (0 : Fin 1) (i 0))

theorem rowVec_apply (brow : (⟨2, ![1, E]⟩ : Shape).Idx → EReal) (q : Fin E) :
    rowVec brow (ix1 q) = brow (ix2 (0 : Fin 1) q) := rfl

/-- The other order of the three terms: (s + b) + t is (s + t) + b. -/
theorem add_bias_middle (s t b : EReal) : s + b + t = s + t + b := add_right_comm s b t

end Cert.Sage

end
-- ==== Proof.Payload.lean ====
/-
  WHAT ONE GRID POINT OF EACH KERNEL COMPUTES, AT AN ELEMENT.

  Both kernels load a block of 10000 rows of the aggregated features and of the node features, the two weight
  matrices whole and the bias as a one-row matrix, and store, at row p and column q of the block,

      Σ_k agg(p, k) · Wl(k, q)  +  Σ_k x(p, k) · Wr(k, q)  +  bias(0, q)

  (the first kernel then takes max(·, 0)). The narrowing of the operands to a shorter float format before the products
  is the identity on extended reals, a product into a zero accumulator is the plain sum, and the re-layings of a
  value to its own shape change nothing.
-/
import proofs.«103026_j26714696581620_1_alg».proof.Proof.Gen.KernelIdeal.Skeleton
import proofs.«103026_j26714696581620_1_alg».proof.Proof.LayerSpec
import Idealize.ShloMosaic.Lib.Pipeline.Value

noncomputable section

open scoped BigOperators

namespace Cert.Sage.Payload

open Idealize.ShloMosaic Idealize.ShloMosaic.ValueIdx Cert.KernelIdeal Cert.KernelIdeal.Gen

/-- The first kernel's stored value at (p, q) of the block. -/
theorem hidden_at (x0 x1 : Vec Ideal S10000x64 .f32) (x2 x3 : Vec Ideal S64x64 .bf16) (x4 : Vec Ideal S1x64 .f32)
    (p : Fin 10000) (q : Fin 64) :
    k0_pay1 (F := Ideal) x0 x1 x2 x3 x4 (ix2 p q)
      = max ((∑ k : Fin 64, x0 (ix2 p k) * x2 (ix2 k q)) + (∑ k : Fin 64, x1 (ix2 p k) * x3 (ix2 k q))
          + x4 (ix2 (0 : Fin 1) q)) 0 := by
  unfold k0_pay1
  rw [maximumf_apply, addf_apply, addf_apply, broadcast_apply]
  rw [Cert.Lib.matmul_zero_at dot_S10000x64_S64x64_S10000x64_1_0_0_1_n_n rfl rfl rfl rfl rfl rfl,
    Cert.Lib.matmul_zero_at dot_S10000x64_S64x64_S10000x64_1_0_0_1_n_n rfl rfl rfl rfl rfl rfl]
  simp only [shapeCast_self, truncf_apply]
  rw [ValueIdx.broadcastTo_1b_ab_apply]
  show max _ (Ideal.ofBits .f32 0x00000000#32) = _
  rw [Ideal.ofBits_zero_f32]

/-- The second kernel's stored value at (p, q) of the block. -/
theorem out_at (x0 x1 : Vec Ideal S10000x64 .f32) (x2 x3 : Vec Ideal S64x16 .bf16) (x4 : Vec Ideal S1x16 .f32)
    (p : Fin 10000) (q : Fin 16) :
    k1_pay1 (F := Ideal) x0 x1 x2 x3 x4 (ix2 p q)
      = (∑ k : Fin 64, x0 (ix2 p k) * x2 (ix2 k q)) + (∑ k : Fin 64, x1 (ix2 p k) * x3 (ix2 k q))
          + x4 (ix2 (0 : Fin 1) q) := by
  unfold k1_pay1
  rw [addf_apply, addf_apply]
  rw [Cert.Lib.matmul_zero_at dot_S10000x64_S64x16_S10000x16_1_0_0_1_n_n rfl rfl rfl rfl rfl rfl,
    Cert.Lib.matmul_zero_at dot_S10000x64_S64x16_S10000x16_1_0_0_1_n_n rfl rfl rfl rfl rfl rfl]
  simp only [shapeCast_self, truncf_apply]
  rw [ValueIdx.broadcastTo_1b_ab_apply]

end Cert.Sage.Payload

end
-- ==== Proof.RegionHidden.lean ====
/-
  THE FIRST KERNEL'S OUTPUT ARRAY AS ONE FUNCTION OF THE ARRAYS IT IS LAUNCHED ON.

  The grid has ten points; point t works on rows 10000·t … 10000·t + 9999 of the aggregated features and of the node
  features (blocks of 10000 rows, all 64 columns), on the two 64×64 weight matrices whole and on the one-row bias, and
  writes rows 10000·t … of the output. So the row of the array that entry (p, ·) of point t's block stands for is
  10000·t + p, every row r of the output is written by point r / 10000, and the array ends holding, at (r, q),

      max( Σ_k agg(r, k) · Wl(k, q) + Σ_k x(r, k) · Wr(k, q) + bias(0, q), 0 ).

  Stated for any contents of the buffers at the kernel's launch.
-/
import proofs.«103026_j26714696581620_1_alg».proof.Proof.Gen.KernelIdeal.Frame
import proofs.«103026_j26714696581620_1_alg».proof.Proof.Payload
import Idealize.ShloMosaic.Lib.Pipeline.Value

set_option maxRecDepth 16384

noncomputable section

open scoped BigOperators

namespace Cert.Sage.RegionHidden

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the output array ends holding, from the five arrays the kernel reads. -/
def arr (c : Dev nD) : S100000x64.Idx → EReal :=
  Cert.Sage.denseRelu (N := 100000) (D := 64) (E := 64) (V c main_v25) (V c main_arg0) (V c main_v26) (V c main_v27)
    (Cert.Sage.rowVec (V c main_v28))

/-- The printed index maps over the ten grid points: the two feature windows and the output move down one block of
    rows per point and stay in column block 0; the weights and the bias stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 10 := Nat.lt_of_lt_of_eq t.isLt N_0

/-- The array row that row p of point t's block stands for. -/
def rowAt (t : Fin cfg0.N) (p : Fin 10000) : Fin 100000 :=
  ⟨t.val * 10000 + p.val, by have := point_lt t; have := p.isLt; omega⟩

/-- Entry (p, q) of point t's output block is entry (10000·t + p, q) of the array. -/
theorem emb_out (t : Fin cfg0.N) (p : Fin 10000) (q : Fin 64) :
    ((cfg0.win 5).blk t).view.emb (ix2 p q) = ix2 (rowAt t p) q := by
  obtain ⟨-, -, -, -, -, -, -, -, -, -, e0, e1⟩ := index_facts t
  funext a; apply Fin.ext
  match a with
  | ⟨0, _⟩ => show win0_5.index t (0 : Fin 2) * 10000 + 1 * p.val = t.val * 10000 + p.val; omega
  | ⟨1, _⟩ => show win0_5.index t (1 : Fin 2) * 64 + 1 * q.val = q.val; omega

/-- The aggregated features' block at point t, read where the array has it. -/
theorem read_agg (c : Dev nD) (t : Fin cfg0.N) (p : Fin 10000) (k : Fin 64) :
    iblk0 V c 0 t (ix2 p k) = V c main_v25 (ix2 (rowAt t p) k) := by
  obtain ⟨e0, e1, -⟩ := index_facts t
  show V c main_v25 (((cfg0.win 0).blk t).view.emb (ix2 p k)) = V c main_v25 (ix2 (rowAt t p) k)
  refine congrArg (V c main_v25) ?_
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

/-- The node features' block at point t. -/
theorem read_x (c : Dev nD) (t : Fin cfg0.N) (p : Fin 10000) (k : Fin 64) :
    iblk0 V c 1 t (ix2 p k) = V c main_arg0 (ix2 (rowAt t p) k) := by
  obtain ⟨-, -, e0, e1, -⟩ := index_facts t
  show V c main_arg0 (((cfg0.win 1).blk t).view.emb (ix2 p k)) = V c main_arg0 (ix2 (rowAt t p) k)
  refine congrArg (V c main_arg0) ?_
  funext a; apply Fin.ext
  match a with
  | ⟨0, _⟩ => show win0_1.index t (0 : Fin 2) * 10000 + 1 * p.val = t.val * 10000 + p.val; omega
  | ⟨1, _⟩ => show win0_1.index t (1 : Fin 2) * 64 + 1 * k.val = k.val; omega

/-- The first weight matrix is one block, the same at every point. -/
theorem read_wl (c : Dev nD) (t : Fin cfg0.N) (k : Fin 64) (q : Fin 64) :
    iblk0 V c 2 t (ix2 k q) = V c main_v26 (ix2 k q) := by
  obtain ⟨-, -, -, -, e0, e1, -⟩ := index_facts t
  show V c main_v26 (((cfg0.win 2).blk t).view.emb (ix2 k q)) = V c main_v26 (ix2 k q)
  refine congrArg (V c main_v26) ?_
  funext a; apply Fin.ext
  match a with
  | ⟨0, _⟩ => show win0_2.index t (0 : Fin 2) * 64 + 1 * k.val = k.val; omega
  | ⟨1, _⟩ => show win0_2.index t (1 : Fin 2) * 64 + 1 * q.val = q.val; omega

/-- So is the second. -/
theorem read_wr (c : Dev nD) (t : Fin cfg0.N) (k : Fin 64) (q : Fin 64) :
    iblk0 V c 3 t (ix2 k q) = V c main_v27 (ix2 k q) := by
  obtain ⟨-, -, -, -, -, -, e0, e1, -⟩ := index_facts t
  show V c main_v27 (((cfg0.win 3).blk t).view.emb (ix2 k q)) = V c main_v27 (ix2 k q)
  refine congrArg (V c main_v27) ?_
  funext a; apply Fin.ext
  match a with
  | ⟨0, _⟩ => show win0_3.index t (0 : Fin 2) * 64 + 1 * k.val = k.val; omega
  | ⟨1, _⟩ => show win0_3.index t (1 : Fin 2) * 64 + 1 * q.val = q.val; omega

/-- And the one-row bias. -/
theorem read_bias (c : Dev nD) (t : Fin cfg0.N) (q : Fin 64) :
    iblk0 V c 4 t (ix2 (0 : Fin 1) q) = V c main_v28 (ix2 (0 : Fin 1) q) := by
  obtain ⟨-, -, -, -, -, -, -, -, e0, e1, -⟩ := index_facts t
  show V c main_v28 (((cfg0.win 4).blk t).view.emb (ix2 (0 : Fin 1) q)) = V c main_v28 (ix2 (0 : Fin 1) q)
  refine congrArg (V c main_v28) ?_
  funext a; apply Fin.ext
  match a with
  | ⟨0, _⟩ => show win0_4.index t (0 : Fin 2) * 1 + 1 * 0 = 0; omega
  | ⟨1, _⟩ => show win0_4.index t (1 : Fin 2) * 64 + 1 * q.val = q.val; omega

/-- WHAT POINT t WRITES BACK is block t of `arr`. -/
theorem flushed_eq (c : Dev nD) (t : Fin cfg0.N) :
    (dat0 V c).flushed 5 t = ((cfg0.win 5).blk t).view.read (Elt Ideal) (arr V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = arr V c (((cfg0.win 5).blk t).view.emb (ix2 p q))
  refine (Cert.Sage.Payload.hidden_at (iblk0 V c 0 t) (iblk0 V c 1 t) (iblk0 V c 2 t) (iblk0 V c 3 t) (iblk0 V c 4 t) p q).trans ?_
  rw [emb_out]
  simp only [read_agg V c t, read_x V c t, read_wl V c t, read_wr V c t, read_bias V c t]
  rfl

/-- An index of the array is in point t's block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v29).slice (win0_5.rect t)).set ↔ _
  rw [View.set_slice_whole, Rect.mem_set_unit]
  exact Iff.rfl

/-- Every row r is written by point r / 10000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have ht : (i 0).val / 10000 < cfg0.N := by rw [show cfg0.N = 10 from N_0]; omega
  obtain ⟨-, -, -, -, -, -, -, -, -, -, e0, e1⟩ := index_facts ⟨(i 0).val / 10000, ht⟩
  refine ⟨⟨(i 0).val / 10000, ht⟩, flush0_5 _, ?_⟩
  rw [mem_blk]
  intro a
  match a with
  | ⟨0, _⟩ =>
    show win0_5.index ⟨(i 0).val / 10000, ht⟩ (0 : Fin 2) * 10000 ≤ (i 0).val ∧ (i 0).val < win0_5.index ⟨(i 0).val / 10000, ht⟩ (0 : Fin 2) * 10000 + 10000
    have e : win0_5.index ⟨(i 0).val / 10000, ht⟩ (0 : Fin 2) = (i 0).val / 10000 := e0
    omega
  | ⟨1, _⟩ =>
    show win0_5.index ⟨(i 0).val / 10000, ht⟩ (1 : Fin 2) * 64 ≤ (i 1).val ∧ (i 1).val < win0_5.index ⟨(i 0).val / 10000, ht⟩ (1 : Fin 2) * 64 + 64
    omega

/-- THE ARRAY after the kernel has run at every point. -/
theorem final (c : Dev nD) : (dat0 V c).arrAt 5 cfg0.N = arr V c :=
  (dat0 V c).arrAt_eq_of_cover 5 (arr V c) (fun t _ => flushed_eq V c t) cover

end Cert.Sage.RegionHidden

end
-- ==== Proof.RegionOut.lean ====
/-
  THE SECOND KERNEL'S OUTPUT ARRAY AS ONE FUNCTION OF THE ARRAYS IT IS LAUNCHED ON.

  The same ten-point grid as the first kernel's: point t works on rows 10000·t … 10000·t + 9999 of the aggregated hidden
  features and of the hidden features themselves (all 64 columns), on the two 64×16 weight matrices whole and on the
  one-row bias, and writes rows 10000·t … of the 16-column output. The array ends holding, at (r, q),

      Σ_k agg(r, k) · Wl(k, q) + Σ_k h(r, k) · Wr(k, q) + bias(0, q).

  Stated for any contents of the buffers at the kernel's launch.
-/
import proofs.«103026_j26714696581620_1_alg».proof.Proof.Gen.KernelIdeal.Frame
import proofs.«103026_j26714696581620_1_alg».proof.Proof.Payload
import Idealize.ShloMosaic.Lib.Pipeline.Value

set_option maxRecDepth 16384

noncomputable section

open scoped BigOperators

namespace Cert.Sage.RegionOut

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- What the output array ends holding, from the five arrays the kernel reads. -/
def arr (c : Dev nD) : S100000x16.Idx → EReal :=
  Cert.Sage.dense (N := 100000) (D := 64) (E := 16) (V c main_v51) (V c main_v29) (V c main_v52) (V c main_v53)
    (Cert.Sage.rowVec (V c main_v54))

/-- The printed index maps over the ten grid points: the two feature windows and the output move down one block of
    rows per point and stay in column block 0; the weights and the bias stay at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 10 := Nat.lt_of_lt_of_eq t.isLt N_1

/-- The array row that row p of point t's block stands for. -/
def rowAt (t : Fin cfg1.N) (p : Fin 10000) : Fin 100000 :=
  ⟨t.val * 10000 + p.val, by have := point_lt t; have := p.isLt; omega⟩

/-- Entry (p, q) of point t's output block is entry (10000·t + p, q) of the array. -/
theorem emb_out (t : Fin cfg1.N) (p : Fin 10000) (q : Fin 16) :
    ((cfg1.win 5).blk t).view.emb (ix2 p q) = ix2 (rowAt t p) q := by
  obtain ⟨-, -, -, -, -, -, -, -, -, -, e0, e1⟩ := index_facts t
  funext a; apply Fin.ext
  match a with
  | ⟨0, _⟩ => show win1_5.index t (0 : Fin 2) * 10000 + 1 * p.val = t.val * 10000 + p.val; omega
  | ⟨1, _⟩ => show win1_5.index t (1 : Fin 2) * 16 + 1 * q.val = q.val; omega

/-- The aggregated features' block at point t, read where the array has it. -/
theorem read_agg (c : Dev nD) (t : Fin cfg1.N) (p : Fin 10000) (k : Fin 64) :
    iblk1 V c 0 t (ix2 p k) = V c main_v51 (ix2 (rowAt t p) k) := by
  obtain ⟨e0, e1, -⟩ := index_facts t
  show V c main_v51 (((cfg1.win 0).blk t).view.emb (ix2 p k)) = V c main_v51 (ix2 (rowAt t p) k)
  refine congrArg (V c main_v51) ?_
  funext a; apply Fin.ext
  match a with
  | ⟨0, _⟩ => show win1_0.index t (0 : Fin 2) * 10000 + 1 * p.val = t.val * 10000 + p.val; omega
  | ⟨1, _⟩ => show win1_0.index t (1 : Fin 2) * 64 + 1 * k.val = k.val; omega

/-- The node features' block at point t. -/
theorem read_x (c : Dev nD) (t : Fin cfg1.N) (p : Fin 10000) (k : Fin 64) :
    iblk1 V c 1 t (ix2 p k) = V c main_v29 (ix2 (rowAt t p) k) := by
  obtain ⟨-, -, e0, e1, -⟩ := index_facts t
  show V c main_v29 (((cfg1.win 1).blk t).view.emb (ix2 p k)) = V c main_v29 (ix2 (rowAt t p) k)
  refine congrArg (V c main_v29) ?_
  funext a; apply Fin.ext
  match a with
  | ⟨0, _⟩ => show win1_1.index t (0 : Fin 2) * 10000 + 1 * p.val = t.val * 10000 + p.val; omega
  | ⟨1, _⟩ => show win1_1.index t (1 : Fin 2) * 64 + 1 * k.val = k.val; omega

/-- The first weight matrix is one block, the same at every point. -/
theorem read_wl (c : Dev nD) (t : Fin cfg1.N) (k : Fin 64) (q : Fin 16) :
    iblk1 V c 2 t (ix2 k q) = V c main_v52 (ix2 k q) := by
  obtain ⟨-, -, -, -, e0, e1, -⟩ := index_facts t
  show V c main_v52 (((cfg1.win 2).blk t).view.emb (ix2 k q)) = V c main_v52 (ix2 k q)
  refine congrArg (V c main_v52) ?_
  funext a; apply Fin.ext
  match a with
  | ⟨0, _⟩ => show win1_2.index t (0 : Fin 2) * 64 + 1 * k.val = k.val; omega
  | ⟨1, _⟩ => show win1_2.index t (1 : Fin 2) * 16 + 1 * q.val = q.val; omega

/-- So is the second. -/
theorem read_wr (c : Dev nD) (t : Fin cfg1.N) (k : Fin 64) (q : Fin 16) :
    iblk1 V c 3 t (ix2 k q) = V c main_v53 (ix2 k q) := by
  obtain ⟨-, -, -, -, -, -, e0, e1, -⟩ := index_facts t
  show V c main_v53 (((cfg1.win 3).blk t).view.emb (ix2 k q)) = V c main_v53 (ix2 k q)
  refine congrArg (V c main_v53) ?_
  funext a; apply Fin.ext
  match a with
  | ⟨0, _⟩ => show win1_3.index t (0 : Fin 2) * 64 + 1 * k.val = k.val; omega
  | ⟨1, _⟩ => show win1_3.index t (1 : Fin 2) * 16 + 1 * q.val = q.val; omega

/-- And the one-row bias. -/
theorem read_bias (c : Dev nD) (t : Fin cfg1.N) (q : Fin 16) :
    iblk1 V c 4 t (ix2 (0 : Fin 1) q) = V c main_v54 (ix2 (0 : Fin 1) q) := by
  obtain ⟨-, -, -, -, -, -, -, -, e0, e1, -⟩ := index_facts t
  show V c main_v54 (((cfg1.win 4).blk t).view.emb (ix2 (0 : Fin 1) q)) = V c main_v54 (ix2 (0 : Fin 1) q)
  refine congrArg (V c main_v54) ?_
  funext a; apply Fin.ext
  match a with
  | ⟨0, _⟩ => show win1_4.index t (0 : Fin 2) * 1 + 1 * 0 = 0; omega
  | ⟨1, _⟩ => show win1_4.index t (1 : Fin 2) * 16 + 1 * q.val = q.val; omega

/-- WHAT POINT t WRITES BACK is block t of `arr`. -/
theorem flushed_eq (c : Dev nD) (t : Fin cfg1.N) :
    (dat1 V c).flushed 5 t = ((cfg1.win 5).blk t).view.read (Elt Ideal) (arr V c) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x16) hz, View.ld_unit_zero (S := S1x16) hz]
  funext j
  obtain ⟨p, q, rfl⟩ : ∃ (p : Fin 10000) (q : Fin 16), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = arr V c (((cfg1.win 5).blk t).view.emb (ix2 p q))
  refine (Cert.Sage.Payload.out_at (iblk1 V c 0 t) (iblk1 V c 1 t) (iblk1 V c 2 t) (iblk1 V c 3 t) (iblk1 V c 4 t) p q).trans ?_
  rw [emb_out]
  simp only [read_agg V c t, read_x V c t, read_wl V c t, read_wr V c t, read_bias V c t]
  rfl

/-- An index of the array is in point t's block iff each coordinate is in the block's range on its axis. -/
theorem mem_blk (t : Fin cfg1.N) (i : S100000x16.Idx) :
    i ∈ ((cfg1.win 5).blk t).view.set ↔ ∀ a : Fin 2, win1_5.index t a * S10000x16.size a ≤ (i a).val ∧ (i a).val < win1_5.index t a * S10000x16.size a + S10000x16.size a := by
  show i ∈ ((View.whole main_v55).slice (win1_5.rect t)).set ↔ _
  rw [View.set_slice_whole, Rect.mem_set_unit]
  exact Iff.rfl

/-- Every row r is written by point r / 10000. -/
theorem cover (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  have ht : (i 0).val / 10000 < cfg1.N := by rw [show cfg1.N = 10 from N_1]; omega
  obtain ⟨-, -, -, -, -, -, -, -, -, -, e0, e1⟩ := index_facts ⟨(i 0).val / 10000, ht⟩
  refine ⟨⟨(i 0).val / 10000, ht⟩, flush1_5 _, ?_⟩
  rw [mem_blk]
  intro a
  match a with
  | ⟨0, _⟩ =>
    show win1_5.index ⟨(i 0).val / 10000, ht⟩ (0 : Fin 2) * 10000 ≤ (i 0).val ∧ (i 0).val < win1_5.index ⟨(i 0).val / 10000, ht⟩ (0 : Fin 2) * 10000 + 10000
    have e : win1_5.index ⟨(i 0).val / 10000, ht⟩ (0 : Fin 2) = (i 0).val / 10000 := e0
    omega
  | ⟨1, _⟩ =>
    show win1_5.index ⟨(i 0).val / 10000, ht⟩ (1 : Fin 2) * 16 ≤ (i 1).val ∧ (i 1).val < win1_5.index ⟨(i 0).val / 10000, ht⟩ (1 : Fin 2) * 16 + 16
    omega

/-- THE ARRAY after the kernel has run at every point. -/
theorem final (c : Dev nD) : (dat1 V c).arrAt 5 cfg1.N = arr V c :=
  (dat1 V c).arrAt_eq_of_cover 5 (arr V c) (fun t _ => flushed_eq V c t) cover

end Cert.Sage.RegionOut

end
-- ==== Proof.Aggregate.lean ====
/-
  THE NEIGHBOURHOOD AVERAGE, AS ONE FUNCTION THAT IS NEVER OPENED.

  Both programs compute, from a feature table, the source and destination node of every edge and the edge weights, the
  same thing by the same host operations in the same order: gather the source rows (a negative source index first
  wrapped by the number of nodes), weigh each by its edge, add the weighted rows into their destination rows, count the
  edges into each destination, and divide each row by max(count, 1). The equivalence of the two programs needs nothing
  about this function except that it is the same function on both sides, so it is stated once and kept closed.
-/
import proofs.«103026_j26714696581620_1_alg».proof.Proof.Gen.KernelIdeal
import Idealize.ShloMosaic.PureOps.Ideal

noncomputable section

namespace Cert.Sage

open Idealize.ShloMosaic Cert.KernelIdeal Cert.KernelIdeal.Gen

/-- Row 0 of the edge table: every edge's source node. -/
def srcOf (ei : (⟨S2x1200000, .i32⟩ : BufTy).Contents (Elt Ideal)) : (⟨S1200000, .i32⟩ : BufTy).Contents (Elt Ideal) :=
  shapeCast _ (extractStridedSlice S1x1200000 ![0, 0] ei slices_S2x1200000_S1x1200000_0_0) shapeCasts_S1x1200000_S1200000

/-- Row 1 of the edge table: every edge's destination node. -/
def dstOf (ei : (⟨S2x1200000, .i32⟩ : BufTy).Contents (Elt Ideal)) : (⟨S1200000, .i32⟩ : BufTy).Contents (Elt Ideal) :=
  shapeCast _ (extractStridedSlice S1x1200000 ![1, 0] ei slices_S2x1200000_S1x1200000_1_0) shapeCasts_S1x1200000_S1200000

/-- The weighted mean of the source rows over the edges into each node. -/
def aggregate (feat : (⟨S100000x64, .f32⟩ : BufTy).Contents (Elt Ideal)) (src dst : (⟨S1200000, .i32⟩ : BufTy).Contents (Elt Ideal))
    (ew : (⟨S1200000, .f32⟩ : BufTy).Contents (Elt Ideal)) : (⟨S100000x64, .f32⟩ : BufTy).Contents (Elt Ideal) :=
  Host.divf
    (Host.scatterAdd scatter_S100000x64_S1200000x1_S1200000x64_1_0_0_1
      (broadcastInDim S100000x64 ![] bcast_S_S100000x64 (constant (F := Ideal) S_ .f32 0x00000000#32))
      (broadcastInDim S1200000x1 ![0] bcast_S1200000_S1200000x1_0 dst)
      (mulf
        (Host.gather gather_S100000x64_S1200000x1_S1200000x64_1_0_n_n_0_1_164 feat
          (broadcastInDim S1200000x1 ![0] bcast_S1200000_S1200000x1_0
            (select (cmpi .slt src (broadcastInDim S1200000 ![] bcast_S_S1200000 (constantI S_ 32 0#32)))
              (addi src (broadcastInDim S1200000 ![] bcast_S_S1200000 (constantI S_ 32 100000#32))) src)))
        (broadcastInDim S1200000x64 ![0, 1] bcast_S1200000x1_S1200000x64_0_1
          (broadcastInDim S1200000x1 ![0] bcast_S1200000_S1200000x1_0 ew))))
    (broadcastInDim S100000x64 ![0, 1] bcast_S100000x1_S100000x64_0_1
      (broadcastInDim S100000x1 ![0] bcast_S100000_S100000x1_0
        (maximumf
          (Host.scatterAdd scatter_S100000_S1200000x1_S1200000_n_0_0_1
            (broadcastInDim S100000 ![] bcast_S_S100000 (constant (F := Ideal) S_ .f32 0x00000000#32))
            (broadcastInDim S1200000x1 ![0] bcast_S1200000_S1200000x1_0 dst)
            (broadcastInDim S1200000 ![] bcast_S_S1200000 (constant (F := Ideal) S_ .f32 0x3F800000#32)))
          (broadcastInDim S100000 ![] bcast_S_S100000 (constant (F := Ideal) S_ .f32 0x3F800000#32)))))

end Cert.Sage

end
-- ==== Proof.HostReads.lean ====
/-
  WHAT THE HOST OPERATIONS AROUND THE TWO KERNELS LEAVE IN THE BUFFERS THE KERNELS READ.

  Before the first kernel: the neighbourhood average of the node features (`aggregate`), the two 64×64 weight matrices
  narrowed to a shorter float format (the identity on extended reals, kept as written here), and the bias re-laid as
  a one-row matrix; the node features, the edge weights and the second layer's parameters are not written. Between
  the kernels the same: the neighbourhood average of what the first kernel wrote, over the same sources and
  destinations (computed once, before the first kernel), the 64×16 matrices narrowed, the second bias re-laid.
  Stated for any contents of the buffers at the start of each stretch.
-/
import proofs.«103026_j26714696581620_1_alg».proof.Proof.Gen.KernelIdeal.Launch
import proofs.«103026_j26714696581620_1_alg».proof.Proof.Aggregate
import Idealize.ShloMosaic.Lib.StableHlo.Run

set_option maxRecDepth 16384

noncomputable section

namespace Cert.Sage.HostReads

open Idealize.ShloMosaic Idealize.ShloMosaic.TcCoe Idealize.ShloMosaic.StableHlo Idealize.SL.Sem
open Cert.KernelIdeal Cert.KernelIdeal.Gen

variable (Wv : Valuation τ sig (Elt Ideal))

/-! ## The stretch before the first kernel -/

set_option maxHeartbeats 4000000 in
theorem first_agg : StableHlo.after (hostOps0 (F := Ideal)) Wv (Proc.devRef .tc main_v25)
    = aggregate (Wv (Proc.devRef .tc main_arg0)) (srcOf (Wv (Proc.devRef .tc main_arg1)))
        (dstOf (Wv (Proc.devRef .tc main_arg1))) (Wv (Proc.devRef .tc main_arg2)) := by
  simp only [hostOps0]
  after_results_simp <;> rfl

set_option maxHeartbeats 4000000 in
theorem first_src : StableHlo.after (hostOps0 (F := Ideal)) Wv (Proc.devRef .tc main_v1)
    = srcOf (Wv (Proc.devRef .tc main_arg1)) := by
  simp only [hostOps0]
  after_results_simp <;> rfl

set_option maxHeartbeats 4000000 in
theorem first_dst : StableHlo.after (hostOps0 (F := Ideal)) Wv (Proc.devRef .tc main_v3)
    = dstOf (Wv (Proc.devRef .tc main_arg1)) := by
  simp only [hostOps0]
  after_results_simp <;> rfl

set_option maxHeartbeats 4000000 in
theorem first_wl : StableHlo.after (hostOps0 (F := Ideal)) Wv (Proc.devRef .tc main_v26)
    = (truncf (F := Ideal) .bf16 (Wv (Proc.devRef .tc main_arg3) : FVec Ideal S64x64 .f32) bitsLt_bf16_f32 : FVec Ideal S64x64 .bf16) := by
  simp only [hostOps0]
  after_results_simp <;> rfl

set_option maxHeartbeats 4000000 in
theorem first_wr : StableHlo.after (hostOps0 (F := Ideal)) Wv (Proc.devRef .tc main_v27)
    = (truncf (F := Ideal) .bf16 (Wv (Proc.devRef .tc main_arg5) : FVec Ideal S64x64 .f32) bitsLt_bf16_f32 : FVec Ideal S64x64 .bf16) := by
  simp only [hostOps0]
  after_results_simp <;> rfl

set_option maxHeartbeats 4000000 in
theorem first_bias : StableHlo.after (hostOps0 (F := Ideal)) Wv (Proc.devRef .tc main_v28)
    = shapeCast _ (Wv (Proc.devRef .tc main_arg4)) shapeCasts_S64_S1x64 := by
  simp only [hostOps0]
  after_results_simp <;> rfl

set_option maxHeartbeats 4000000 in
/-- No operation of the stretch writes an argument of the program. -/
theorem first_kept : StableHlo.after (hostOps0 (F := Ideal)) Wv (Proc.devRef .tc main_arg0) = Wv (Proc.devRef .tc main_arg0)
    ∧ StableHlo.after (hostOps0 (F := Ideal)) Wv (Proc.devRef .tc main_arg2) = Wv (Proc.devRef .tc main_arg2)
    ∧ StableHlo.after (hostOps0 (F := Ideal)) Wv (Proc.devRef .tc main_arg6) = Wv (Proc.devRef .tc main_arg6)
    ∧ StableHlo.after (hostOps0 (F := Ideal)) Wv (Proc.devRef .tc main_arg7) = Wv (Proc.devRef .tc main_arg7)
    ∧ StableHlo.after (hostOps0 (F := Ideal)) Wv (Proc.devRef .tc main_arg8) = Wv (Proc.devRef .tc main_arg8) := by
  simp only [hostOps0]
  refine ⟨?_, ?_, ?_, ?_, ?_⟩ <;> after_results_simp <;> rfl

/-! ## The stretch between the kernels -/

set_option maxHeartbeats 4000000 in
theorem second_agg : StableHlo.after (hostOps1 (F := Ideal)) Wv (Proc.devRef .tc main_v51)
    = aggregate (Wv (Proc.devRef .tc main_v29)) (Wv (Proc.devRef .tc main_v1)) (Wv (Proc.devRef .tc main_v3))
        (Wv (Proc.devRef .tc main_arg2)) := by
  simp only [hostOps1]
  after_results_simp <;> rfl

set_option maxHeartbeats 4000000 in
theorem second_wl : StableHlo.after (hostOps1 (F := Ideal)) Wv (Proc.devRef .tc main_v52)
    = (truncf (F := Ideal) .bf16 (Wv (Proc.devRef .tc main_arg6) : FVec Ideal S64x16 .f32) bitsLt_bf16_f32 : FVec Ideal S64x16 .bf16) := by
  simp only [hostOps1]
  after_results_simp <;> rfl

set_option maxHeartbeats 4000000 in
theorem second_wr : StableHlo.after (hostOps1 (F := Ideal)) Wv (Proc.devRef .tc main_v53)
    = (truncf (F := Ideal) .bf16 (Wv (Proc.devRef .tc main_arg8) : FVec Ideal S64x16 .f32) bitsLt_bf16_f32 : FVec Ideal S64x16 .bf16) := by
  simp only [hostOps1]
  after_results_simp <;> rfl

set_option maxHeartbeats 4000000 in
theorem second_bias : StableHlo.after (hostOps1 (F := Ideal)) Wv (Proc.devRef .tc main_v54)
    = shapeCast _ (Wv (Proc.devRef .tc main_arg7)) shapeCasts_S16_S1x16 := by
  simp only [hostOps1]
  after_results_simp <;> rfl

set_option maxHeartbeats 4000000 in
/-- The stretch does not write what the first kernel wrote. -/
theorem second_kept : StableHlo.after (hostOps1 (F := Ideal)) Wv (Proc.devRef .tc main_v29) = Wv (Proc.devRef .tc main_v29) := by
  simp only [hostOps1]
  after_results_simp <;> rfl

end Cert.Sage.HostReads

end
-- ==== Proof.Model.lean ====
/-
  THE TWO-LAYER NETWORK AS ONE FUNCTION OF THE NINE ARGUMENTS.

  hidden = max( mean(x)·W1l + x·W1r + b1, 0 ),   result = mean(hidden)·W2l + hidden·W2r + b2,

  where mean(·) is the weighted neighbourhood average over the same edges both times. Both programs are proved equal to
  this function, the kernel program through its two kernels' output arrays and the host operations between them, the
  reference through its operations one at a time.
-/
import proofs.«103026_j26714696581620_1_alg».proof.Proof.Aggregate
import proofs.«103026_j26714696581620_1_alg».proof.Proof.LayerSpec

noncomputable section

namespace Cert.Sage

open Idealize.ShloMosaic Cert.KernelIdeal

/-- The hidden features. -/
def hiddenOf (x : (⟨S100000x64, .f32⟩ : BufTy).Contents (Elt Ideal)) (ei : (⟨S2x1200000, .i32⟩ : BufTy).Contents (Elt Ideal))
    (ew : (⟨S1200000, .f32⟩ : BufTy).Contents (Elt Ideal)) (w1l : (⟨S64x64, .f32⟩ : BufTy).Contents (Elt Ideal))
    (b1 : (⟨S64, .f32⟩ : BufTy).Contents (Elt Ideal)) (w1r : (⟨S64x64, .f32⟩ : BufTy).Contents (Elt Ideal)) :
    (⟨S100000x64, .f32⟩ : BufTy).Contents (Elt Ideal) :=
  denseRelu (N := 100000) (D := 64) (E := 64) (aggregate x (srcOf ei) (dstOf ei) ew) x w1l w1r b1

/-- The network's result. -/
def resultOf (x : (⟨S100000x64, .f32⟩ : BufTy).Contents (Elt Ideal)) (ei : (⟨S2x1200000, .i32⟩ : BufTy).Contents (Elt Ideal))
    (ew : (⟨S1200000, .f32⟩ : BufTy).Contents (Elt Ideal)) (w1l : (⟨S64x64, .f32⟩ : BufTy).Contents (Elt Ideal))
    (b1 : (⟨S64, .f32⟩ : BufTy).Contents (Elt Ideal)) (w1r : (⟨S64x64, .f32⟩ : BufTy).Contents (Elt Ideal))
    (w2l : (⟨S64x16, .f32⟩ : BufTy).Contents (Elt Ideal)) (b2 : (⟨S16, .f32⟩ : BufTy).Contents (Elt Ideal))
    (w2r : (⟨S64x16, .f32⟩ : BufTy).Contents (Elt Ideal)) : (⟨S100000x16, .f32⟩ : BufTy).Contents (Elt Ideal) :=
  dense (N := 100000) (D := 64) (E := 16)
    (aggregate (hiddenOf x ei ew w1l b1 w1r) (srcOf ei) (dstOf ei) ew) (hiddenOf x ei ew w1l b1 w1r) w2l w2r b2

end Cert.Sage

end
-- ==== Proof.KernelValue.lean ====
/-
  THE KERNEL PROGRAM COMPUTES THE TWO-LAYER NETWORK.

  The result buffer ends at the second kernel's output array, which is the dense layer of what the host operations
  between the kernels left: the neighbourhood average of the first kernel's output array, that array itself, the second
  layer's weights (narrowed to a shorter float format, which changes no extended real) and its bias re-laid as one row.
  The first kernel's output array is the same of the node features with max(·, 0). The sources and destinations of the
  edges are computed once, before the first kernel, and neither kernel writes them.
-/
import proofs.«103026_j26714696581620_1_alg».proof.Proof.KernelRun
import proofs.«103026_j26714696581620_1_alg».proof.Proof.RegionHidden
import proofs.«103026_j26714696581620_1_alg».proof.Proof.RegionOut
import proofs.«103026_j26714696581620_1_alg».proof.Proof.HostReads
import proofs.«103026_j26714696581620_1_alg».proof.Proof.Model

set_option maxRecDepth 16384

noncomputable section

namespace Cert.Sage.KernelValue

open Idealize.ShloMosaic Idealize.ShloMosaic.TcCoe Idealize.ShloMosaic.ValueIdx Idealize.SL.Sem
open Cert.KernelIdeal Cert.KernelIdeal.Gen

/-- A vector re-laid as one row and read back as a vector is the vector. -/
theorem rowVec_shapeCast {E : Nat} (b : (⟨1, ![E]⟩ : Shape).Idx → EReal) (h : (⟨1, ![E]⟩ : Shape).ShapeCasts ⟨2, ![1, E]⟩) :
    Cert.Sage.rowVec (shapeCast ⟨2, ![1, E]⟩ b h) = b := by
  funext i
  rw [eq_ix1 i]
  exact shapeCast_a_1a_apply b h 0 (i 0)

variable (m : (ℓ : Loc nD τ sig) → Buf (Elt Ideal) ℓ) (ρ : Dev nD → PrngReg)

/-- The first kernel's output array is the network's hidden features. -/
theorem hidden_arr (c : Dev nD) :
    Cert.Sage.RegionHidden.arr (V1 m ρ) c
      = hiddenOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have e25 : V1 m ρ c main_v25 = _ := HostReads.first_agg (W0 m ρ c)
  have e0 : V1 m ρ c main_arg0 = _ := (HostReads.first_kept (W0 m ρ c)).1
  have e26 : V1 m ρ c main_v26 = _ := HostReads.first_wl (W0 m ρ c)
  have e27 : V1 m ρ c main_v27 = _ := HostReads.first_wr (W0 m ρ c)
  have e28 : V1 m ρ c main_v28 = _ := HostReads.first_bias (W0 m ρ c)
  unfold Cert.Sage.RegionHidden.arr hiddenOf
  rw [e25, e0, e26, e27, e28, rowVec_shapeCast]
  rfl

/-- The program's result is the network's. -/
theorem result_arr (c : Dev nD) :
    W4 m ρ c (Proc.devRef .tc main_v55)
      = resultOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  have e51 : V3 m ρ c main_v51 = _ := HostReads.second_agg (W2 m ρ c)
  have e29 : V3 m ρ c main_v29 = _ := HostReads.second_kept (W2 m ρ c)
  have e52 : V3 m ρ c main_v52 = _ := HostReads.second_wl (W2 m ρ c)
  have e53 : V3 m ρ c main_v53 = _ := HostReads.second_wr (W2 m ρ c)
  have e54 : V3 m ρ c main_v54 = _ := HostReads.second_bias (W2 m ρ c)
  have h29 : W2 m ρ c (Proc.devRef .tc main_v29) = _ :=
    (W2_arr m ρ c 5).trans ((Cert.Sage.RegionHidden.final (V1 m ρ) c).trans (hidden_arr m ρ c))
  have h1 : W2 m ρ c (Proc.devRef .tc main_v1) = _ := (W2_of_ne m ρ c main_v1 (by decide)).trans (HostReads.first_src (W0 m ρ c))
  have h3 : W2 m ρ c (Proc.devRef .tc main_v3) = _ := (W2_of_ne m ρ c main_v3 (by decide)).trans (HostReads.first_dst (W0 m ρ c))
  have h2 : W2 m ρ c (Proc.devRef .tc main_arg2) = _ := (W2_of_ne m ρ c main_arg2 (by decide)).trans (HostReads.first_kept (W0 m ρ c)).2.1
  have h6 : W2 m ρ c (Proc.devRef .tc main_arg6) = _ := (W2_of_ne m ρ c main_arg6 (by decide)).trans (HostReads.first_kept (W0 m ρ c)).2.2.1
  have h7 : W2 m ρ c (Proc.devRef .tc main_arg7) = _ := (W2_of_ne m ρ c main_arg7 (by decide)).trans (HostReads.first_kept (W0 m ρ c)).2.2.2.1
  have h8 : W2 m ρ c (Proc.devRef .tc main_arg8) = _ := (W2_of_ne m ρ c main_arg8 (by decide)).trans (HostReads.first_kept (W0 m ρ c)).2.2.2.2
  refine (W4_arr m ρ c 5).trans ((Cert.Sage.RegionOut.final (V3 m ρ) c).trans ?_)
  unfold Cert.Sage.RegionOut.arr resultOf
  rw [e51, e29, e52, e53, e54, h29, h1, h3, h2, h6, h7, h8, rowVec_shapeCast]
  rfl

end Cert.Sage.KernelValue

end
-- ==== Proof.RefValue.lean ====
/-
  THE REFERENCE COMPUTES THE TWO-LAYER NETWORK.

  Its operations one at a time: the neighbourhood average is the closed function `aggregate` (the same operations in
  the same order, so the two terms are one); each layer's two matrix products are, at (r, q), the sums over k of row r
  against column q; its bias is broadcast to a row and then down the rows; and it adds (product + bias) + product
  where the network is written (product + product) + bias — the same extended real.
-/
import proofs.«103026_j26714696581620_1_alg».proof.Proof.Gen.ReferenceIdeal.Read
import proofs.«103026_j26714696581620_1_alg».proof.Proof.Model

set_option maxRecDepth 16384

noncomputable section

open scoped BigOperators

namespace Cert.Sage.Ref

open Idealize.ShloMosaic Idealize.ShloMosaic.ValueIdx
open Cert.ReferenceIdeal Cert.ReferenceIdeal.Gen Cert.ReferenceIdeal.Read

variable (x0 : (⟨S100000x64, .f32⟩ : BufTy).Contents (Elt Ideal)) (x1 : (⟨S2x1200000, .i32⟩ : BufTy).Contents (Elt Ideal)) (x2 : (⟨S1200000, .f32⟩ : BufTy).Contents (Elt Ideal))
  (x3 : (⟨S64x64, .f32⟩ : BufTy).Contents (Elt Ideal)) (x4 : (⟨S64, .f32⟩ : BufTy).Contents (Elt Ideal)) (x5 : (⟨S64x64, .f32⟩ : BufTy).Contents (Elt Ideal))
  (x6 : (⟨S64x16, .f32⟩ : BufTy).Contents (Elt Ideal)) (x7 : (⟨S16, .f32⟩ : BufTy).Contents (Elt Ideal)) (x8 : (⟨S64x16, .f32⟩ : BufTy).Contents (Elt Ideal))

/-- The first neighbourhood average is `aggregate` of the node features. -/
theorem agg_first : val_main_v25 (F := Ideal) x0 x1 x2 = Cert.Sage.aggregate x0 (Cert.Sage.srcOf x1) (Cert.Sage.dstOf x1) x2 := by
  unfold val_main_v25 val_main_v16 val_main_v24 val_main_v23 val_main_v22 val_main_v21 val_main_cst_3 val_main_v20 val_main_v19
    val_main_v18 val_main_cst_2 val_main_v17 val_main_cst_1 val_main_v15 val_main_v14 val_main_cst val_main_v13 val_main_v12
    val_main_v11 val_main_v10 val_main_v9 val_main_v8 val_main_v7 val_main_v6 val_main_c_0 val_main_v5 val_main_v4 val_main_c
    val_main_v3 val_main_v2 val_main_v1 val_main_v0
  rfl

/-- The second is `aggregate` of the hidden features, over the same edges. -/
theorem agg_second : val_main_v54 (F := Ideal) x0 x1 x2 x3 x4 x5
    = Cert.Sage.aggregate (val_main_v32 (F := Ideal) x0 x1 x2 x3 x4 x5) (Cert.Sage.srcOf x1) (Cert.Sage.dstOf x1) x2 := by
  unfold val_main_v54 val_main_v45 val_main_v53 val_main_v52 val_main_v51 val_main_v50 val_main_cst_9 val_main_v49 val_main_v48
    val_main_v47 val_main_cst_8 val_main_v46 val_main_cst_7 val_main_v44 val_main_v43 val_main_cst_6 val_main_v42 val_main_v41
    val_main_v40 val_main_v39 val_main_v38 val_main_v37 val_main_v36 val_main_v35 val_main_c_5 val_main_v34 val_main_v33 val_main_c_4
    val_main_v3 val_main_v2 val_main_v1 val_main_v0
  rfl

/-- The reference's hidden features are the network's. -/
theorem hidden_eq : val_main_v32 (F := Ideal) x0 x1 x2 x3 x4 x5 = Cert.Sage.hiddenOf x0 x1 x2 x3 x4 x5 := by
  funext j
  obtain ⟨r, q, rfl⟩ : ∃ (r : Fin 100000) (q : Fin 64), j = ix2 r q := ⟨j 0, j 1, eq_ix2 j⟩
  rw [val_main_v32_apply, val_main_v31_apply, val_main_v29_apply]
  unfold val_main_v26 val_main_v30 val_main_v28 val_main_v27 val_main_call0_v0 val_main_call0_cst
  rw [Cert.Lib.dotGeneral_at dot_S100000x64_S64x64_S100000x64_1_0_0_1_n_n rfl rfl rfl rfl rfl rfl,
    Cert.Lib.dotGeneral_at dot_S100000x64_S64x64_S100000x64_1_0_0_1_n_n rfl rfl rfl rfl rfl rfl,
    Cert.Lib.bcastInDim_vecRows_apply, Cert.Lib.bcast_const_apply, Ideal.ofBits_zero_f32, agg_first]
  show max (_ + _ + _) 0 = _
  rw [Cert.Sage.add_bias_middle]
  rfl

/-- The reference's result is the network's. -/
theorem result_eq : val_main_v60 (F := Ideal) x0 x1 x2 x3 x4 x5 x6 x7 x8 = Cert.Sage.resultOf x0 x1 x2 x3 x4 x5 x6 x7 x8 := by
  funext j
  obtain ⟨r, q, rfl⟩ : ∃ (r : Fin 100000) (q : Fin 16), j = ix2 r q := ⟨j 0, j 1, eq_ix2 j⟩
  rw [val_main_v60_apply, val_main_v58_apply]
  unfold val_main_v55 val_main_v59 val_main_v57 val_main_v56
  rw [Cert.Lib.dotGeneral_at dot_S100000x64_S64x16_S100000x16_1_0_0_1_n_n rfl rfl rfl rfl rfl rfl,
    Cert.Lib.dotGeneral_at dot_S100000x64_S64x16_S100000x16_1_0_0_1_n_n rfl rfl rfl rfl rfl rfl,
    Cert.Lib.bcastInDim_vecRows_apply, agg_second, hidden_eq]
  show _ + _ + _ = _
  rw [Cert.Sage.add_bias_middle]
  rfl

end Cert.Sage.Ref

end
-- ==== Proof.lean ====
/-
  The kernel program and its reference compute the same two-layer graph network on the extended reals.

  Both average each node's neighbours' features over the weighted edges by the same host operations (a function kept
  closed, Proof/Aggregate.lean), and both then form, per layer, mean·Wl + x·Wr + b — the first layer followed by
  max(·, 0) (Proof/Model.lean). The kernel program does the dense part in two kernels over ten blocks of 10000 rows
  (Proof/Payload.lean: one block at an element; Proof/RegionHidden.lean, Proof/RegionOut.lean: the blocks tile the output
  arrays; Proof/HostReads.lean: what the host operations hand the kernels; Proof/KernelRun.lean: the program's run with its
  result named; Proof/KernelValue.lean: the result is the network's), the reference by whole matrix products
  (Proof/RefValue.lean). The two differ in the order in which the three terms of a layer are added, and addition of
  extended reals is commutative and associative, so the inputs' finiteness is never used. The kernel program's
  idealization rewrote no operation, so there is nothing to preserve; the three frames are the generated runs.
-/
import proofs.«103026_j26714696581620_1_alg».proof.Defs
import proofs.«103026_j26714696581620_1_alg».proof.Proof.Gen.Kernel
import proofs.«103026_j26714696581620_1_alg».proof.Proof.Gen.Kernel.Frame
import proofs.«103026_j26714696581620_1_alg».proof.Proof.Gen.KernelIdeal
import proofs.«103026_j26714696581620_1_alg».proof.Proof.Gen.KernelIdeal.Frame
import proofs.«103026_j26714696581620_1_alg».proof.Proof.Gen.ReferenceIdeal
import proofs.«103026_j26714696581620_1_alg».proof.Proof.Gen.Pre_finite_inputs
import proofs.«103026_j26714696581620_1_alg».proof.Proof.Gen.ReferenceIdeal.Run
import proofs.«103026_j26714696581620_1_alg».proof.Proof.Gen.ReferenceIdeal.Read
import proofs.«103026_j26714696581620_1_alg».proof.Proof.KernelValue
import proofs.«103026_j26714696581620_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the nine arguments both programs end with the network's result of those arguments. -/
theorem algebraic : Cert.algebraic_KernelIdeal_ReferenceIdeal := by
  intro m ρ m' ρ' _ hagree
  refine ⟨fun c => Cert.Sage.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Sage.KernelValue.result_arr m ρ c), (h c).2⟩)
      (Cert.Sage.KernelRun.run_result (F := Ideal) m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7, a8⟩ := hagree c
    rw [(h c).1, Cert.ReferenceIdeal.Read.val_main_v60_eq, Cert.Sage.Ref.result_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
